-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩

class Facts : Prop where
  bcast_S_S800000 : S_.BroadcastsInDim S800000 (![] : Fin 0 → Fin S800000.rank)
  reducesTo_S800000_S_d0 : S800000.ReducesTo [0] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S800000 32) (main_arg1 : IVec S800000 32) (main_arg2 : FVec F S800000 .f32) (main_arg3 : FVec F S50000x128 .f32) (main_arg4 : FVec F S128x128 .f32) (main_arg5 : FVec F S128 .f32) (main_arg6 : FVec F S128x128 .f32) (main_arg7 : FVec F S128 .f32) : IVec S_ 1 :=
  let main_v0 : FVec F S800000 .f32 := Host.absf main_arg2
  let main_cst : FVec F S_ .f32 := constant S_ .f32 0x7F800000#32
  let main_v1 : FVec F S800000 .f32 := broadcastInDim S800000 ![] bcast_S_S800000 main_cst
  let main_v2 : IVec S800000 1 := cmpf .olt main_v0 main_v1
  let main_c : IVec S_ 1 := constantI S_ 1 1#1
  let main_v3 : IVec S_ 1 := (fun x v => Host.reduce IntOp.andi x v reducesTo_S800000_S_d0 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S10000x128 : Shape := ⟨2, ![10000, 128]⟩

abbrev nBuf : Space → Nat
  | .hbm => 54
  | .vmem => 12
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x128, .bf16⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x128, .bf16⟩
  | .hbm, ⟨18, _⟩ => ⟨S800000x128, .f32⟩
  | .hbm, ⟨19, _⟩ => ⟨S800000x1, .f32⟩
  | .hbm, ⟨20, _⟩ => ⟨S800000x128, .f32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S128x128, .f32⟩
  | .hbm, ⟨27, _⟩ => ⟨S128x128, .bf16⟩
  | .hbm, ⟨28, _⟩ => ⟨S1x128, .f32⟩
  | .hbm, ⟨29, _⟩ => ⟨S50000x128, .bf16⟩
  | .hbm, ⟨30, _⟩ => ⟨S50000x128, .f32⟩
  | .hbm, ⟨31, _⟩ => ⟨S50000x128, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .bf16⟩
  | .hbm, ⟨41, _⟩ => ⟨S800000x128, .f32⟩
  | .hbm, ⟨42, _⟩ => ⟨S800000x1, .f32⟩
  | .hbm, ⟨43, _⟩ => ⟨S800000x128, .f32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S128x128, .f32⟩
  | .hbm, ⟨50, _⟩ => ⟨S128x128, .bf16⟩
  | .hbm, ⟨51, _⟩ => ⟨S1x128, .f32⟩
  | .hbm, ⟨52, _⟩ => ⟨S50000x128, .bf16⟩
  | .hbm, ⟨53, _⟩ => ⟨S50000x128, .f32⟩
  | .local _ .vmem, ⟨0, _⟩ => ⟨S10000x128, .bf16⟩
  | .local _ .vmem, ⟨1, _⟩ => ⟨S10000x128, .bf16⟩
  | .local _ .vmem, ⟨2, _⟩ => ⟨S128x128, .bf16⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .bf16⟩
  | .local _ .vmem, ⟨7, _⟩ => ⟨S10000x128, .bf16⟩
  | .local _ .vmem, ⟨8, _⟩ => ⟨S128x128, .bf16⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .bf16 = 32 ∨ (Rect.block (s := S50000x128) S10000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .bf16 = 32 ∨ (Rect.block (s := S50000x128) S10000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v18) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v38) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 56
  | .vmem => 0
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S800000, .f32⟩
  | .hbm, ⟨3, _⟩ => ⟨S50000x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S128x128, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S800000x1, .f32⟩
  | .hbm, ⟨42, _⟩ => ⟨S800000x128, .f32⟩
  | .hbm, ⟨43, _⟩ => ⟨S800000x128, .f32⟩
  | .hbm, ⟨44, _⟩ => ⟨S_, .f32⟩
  | .hbm, ⟨45, _⟩ => ⟨S50000x128, .f32⟩
  | .hbm, ⟨46, _⟩ => ⟨S800000x1, .i32⟩
  | .hbm, ⟨47, _⟩ => ⟨S50000x128, .f32⟩
  | .hbm, ⟨48, _⟩ => ⟨S128x128, .f32⟩
  | .hbm, ⟨49, _⟩ => ⟨S50000x128, .f32⟩
  | .hbm, ⟨50, _⟩ => ⟨S1x128, .f32⟩
  | .hbm, ⟨51, _⟩ => ⟨S50000x128, .f32⟩
  | .hbm, ⟨52, _⟩ => ⟨S50000x128, .f32⟩
  | .hbm, ⟨53, _⟩ => ⟨S_, .f32⟩
  | .hbm, ⟨54, _⟩ => ⟨S50000x128, .f32⟩
  | .hbm, ⟨55, _⟩ => ⟨S50000x128, .f32⟩
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_call1_cst : Ref sig .tc := ⟨.hbm, 53, rfl⟩
abbrev main_call1_v0 : Ref sig .tc := ⟨.hbm, 54, rfl⟩
abbrev main_v37 : Ref sig .tc := ⟨.hbm, 55, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel program is two row-tiled dense layers, each entered after a stretch of host operations. Its run
  ends with every buffer that outlives a region at the contents of the last boundary of that chain of stretches and
  regions: the fold that starts from the launch memory, applies the first stretch's operations, replaces the first
  region's arrays by what its write-backs leave, applies the second stretch's operations and replaces the second
  region's arrays likewise. The statement here keeps that whole final valuation in the post, so that the result
  array (a region's output, not an argument) can be read from it; the argument arrays follow from it as a corollary.
-/
import proofs.«107794_j81338090651948_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state each buffer that
    outlives a region holds the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The same run with the result array named at the last boundary's contents, and the eight argument arrays as
    launched (no stretch and no region writes an argument). -/
theorem run_result : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_buffers m ρ)

end Cert.KernelIdeal.Whole

end
-- ==== Proof.Dense.lean ====
/-
  One entry of a dense layer followed by a rectifier, on the extended reals: the inner product of a row of the
  input with a column of the weights, plus a bias, cut below at zero. Both programs of this certificate compute every
  entry of both of their layers as this one function of a row, a column and a bias; everything else in the proof is
  about WHICH row, column and bias an entry reads.
-/
import Idealize.ShloMosaic.PureOps.Ideal

noncomputable section

namespace Cert.Gcn

/-- `max (Σ_k row k · col k + bias) 0`, over a contraction of 128 terms. -/
def denseRelu (row col : Fin 128 → EReal) (bias : EReal) : EReal :=
  max (∑ k : Fin 128, row k * col k + bias) 0

end Cert.Gcn

end
-- ==== Proof.Payload.lean ====
/-
  What a region's body stores, read at one entry. The body loads a block of 10000 rows of the layer's input, the
  whole transposed weight matrix and the bias as a single row, and stores, for row `p` of the block and column `q`,
  the matrix product's entry `Σ_k x[p, k] · wt[k, q]` (accumulated from zero) plus the bias row's entry `q`, cut below
  at zero. On the extended reals that is `denseRelu` of the block's row `p`, the weights' column `q` and that bias
  entry: the product is the plain sum over the contracted axis, the broadcast of the bias row reads its only row, and
  the zero pattern is the number zero. The two regions' bodies are the same term.
-/
import proofs.«107794_j81338090651948_2_alg».proof.Proof.Gen.KernelIdeal.Skeleton
import proofs.«107794_j81338090651948_2_alg».proof.Proof.Dense
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.Gcn
open Idealize.ShloMosaic Idealize.ShloMosaic.ValueIdx

/-! ## The block product's operand indices: output entry (r, c) and contraction index k read (r, k) and (k, c) -/

theorem lhs_row (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem lhs_contr (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem rhs_contr (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem rhs_col (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The block product into a zero accumulator, at entry (p, q): the sum over `k` of `x[p, k] · wt[k, q]`. -/
theorem product_apply (x0 : FVec Ideal S10000x128 .bf16) (x1 : FVec Ideal S128x128 .bf16) (p : Fin 10000) (q : Fin 128) :
    matmul dot_S10000x128_S128x128_S10000x128_1_0_0_1_n_n none x0 x1 (constant S10000x128 .f32 0x00000000#32) (ix2 p q)
      = ∑ k : Fin 128, x0 (ix2 p k) * x1 (ix2 k q) := by
  refine (Ideal.matmul_constant_zero_apply dot_S10000x128_S128x128_S10000x128_1_0_0_1_n_n none x0 x1 (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact lhs_row _ _
      | ⟨1, _⟩ => exact (lhs_contr _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (rhs_contr _ _).trans hk
      | ⟨1, _⟩ => exact rhs_col _ _)
  rw [el, er]

/-- The bias row broadcast down the block, at entry (p, q): the row's entry `q`. -/
theorem bias_apply (x2 : FVec Ideal S1x128 .f32) (p : Fin 10000) (q : Fin 128) :
    broadcastTo S10000x128 x2 broadcasts_S1x128_S10000x128 (ix2 p q) = x2 (ix2 (0 : Fin 1) q) :=
  broadcastTo_apply x2 broadcasts_S1x128_S10000x128 (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- THE FIRST REGION'S STORED VALUE at entry (p, q) of a block. -/
theorem pay_apply (x0 : FVec Ideal S10000x128 .bf16) (x1 : FVec Ideal S128x128 .bf16) (x2 : FVec Ideal S1x128 .f32)
    (p : Fin 10000) (q : Fin 128) :
    k0_pay1 (F := Ideal) x0 x1 x2 (ix2 p q)
      = denseRelu (fun k => x0 (ix2 p k)) (fun k => x1 (ix2 k q)) (x2 (ix2 (0 : Fin 1) q)) := by
  unfold k0_pay1
  simp only [shapeCast_self]
  show max (matmul dot_S10000x128_S128x128_S10000x128_1_0_0_1_n_n none x0 x1 (constant S10000x128 .f32 0x00000000#32) (ix2 p q)
      + broadcastTo S10000x128 x2 broadcasts_S1x128_S10000x128 (ix2 p q)) (Ideal.ofBits .f32 0x00000000#32) = _
  rw [product_apply, bias_apply, Ideal.ofBits_zero_f32]
  rfl

/-- The second region's body is the same term. -/
theorem pay_apply' (x0 : FVec Ideal S10000x128 .bf16) (x1 : FVec Ideal S128x128 .bf16) (x2 : FVec Ideal S1x128 .f32)
    (p : Fin 10000) (q : Fin 128) :
    k1_pay1 (F := Ideal) x0 x1 x2 (ix2 p q)
      = denseRelu (fun k => x0 (ix2 p k)) (fun k => x1 (ix2 k q)) (x2 (ix2 (0 : Fin 1) q)) :=
  pay_apply x0 x1 x2 p q

end Cert.KernelIdeal.Body

end
-- ==== Proof.RegionValue.lean ====
/-
  Each region of the kernel program, whatever its arrays hold when it is entered, leaves its output array holding one
  dense layer of them. A region runs a grid of five points; point `t` reads rows `10000·t … 10000·t + 9999` of the
  input array as its block, the whole transposed weight matrix and the whole bias row at every point, and writes back
  the same rows of the output array. So the stored value's entry (p, q) at point `t` — one inner product, a bias and
  a cut at zero (the body's payload) — is the layer's entry (10000·t + p, q) of the arrays themselves; the five row
  blocks are pairwise apart and fill the output array (row `r` lies in the block of point `r / 10000`), hence the
  array after the region is the layer, entry by entry. The entry contents are a parameter `V`: the first region is
  entered after one stretch of host operations and the second after another, and the statement serves both.
-/
import proofs.«107794_j81338090651948_2_alg».proof.Proof.Gen.KernelIdeal.Frame
import proofs.«107794_j81338090651948_2_alg».proof.Proof.Payload
import Idealize.ShloMosaic.Lib.Pipeline.Value

set_option maxRecDepth 16384

noncomputable section

namespace Cert.KernelIdeal.Region

open Cert.KernelIdeal Cert.KernelIdeal.Gen Cert.Gcn Cert.KernelIdeal.Body
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- One dense layer with a rectifier, as a function of the input array, the TRANSPOSED weight matrix and the bias as
    a one-row matrix: entry (r, c) is `denseRelu` of the input's row `r`, the matrix's column `c` and the row's entry `c`. -/
def layerOut (x : S50000x128.Idx → EReal) (wt : S128x128.Idx → EReal) (b : S1x128.Idx → EReal) : S50000x128.Idx → EReal :=
  fun i => denseRelu (fun k => x (ix2 (⟨(i 0).val, idx2_lt0 i⟩ : Fin 50000) k))
    (fun k => wt (ix2 k (⟨(i 1).val, idx2_lt1 i⟩ : Fin 128))) (b (ix2 (0 : Fin 1) (⟨(i 1).val, idx2_lt1 i⟩ : Fin 128)))

theorem hz : (![0, 0] : Fin 2 → Nat) = fun _ => 0 := funext fun a => by fin_cases a <;> rfl

/-- The stored value of a block whose rows are rows `r …` of the input array (and whose other two operands are the
    whole weight matrix and bias row) is, at local entry `j`, the layer's entry `i` = (r + j₀, j₁). -/
theorem block_entry (X : S50000x128.Idx → EReal) (Wt : S128x128.Idx → EReal) (B : S1x128.Idx → EReal)
    (x0 : FVec Ideal S10000x128 .bf16) (x1 : FVec Ideal S128x128 .bf16) (x2 : FVec Ideal S1x128 .f32) (r : Nat)
    (h0 : ∀ (p : Fin 10000) (k : Fin 128) (P : Fin 50000), P.val = r + p.val → x0 (ix2 p k) = X (ix2 P k))
    (h1 : ∀ (k q : Fin 128), x1 (ix2 k q) = Wt (ix2 k q))
    (h2 : ∀ (q : Fin 128), x2 (ix2 (0 : Fin 1) q) = B (ix2 (0 : Fin 1) q))
    (j : S10000x128.Idx) (i : S50000x128.Idx) (hi0 : (i 0).val = r + (j 0).val) (hi1 : (i 1).val = (j 1).val) :
    k0_pay1 (F := Ideal) x0 x1 x2 j = layerOut X Wt B i := by
  obtain ⟨p, q, rfl⟩ : ∃ (p : Fin 10000) (q : Fin 128), j = ix2 p q := ⟨j 0, j 1, eq_ix2 j⟩
  rw [pay_apply]
  unfold layerOut
  have hq : (⟨(i 1).val, idx2_lt1 i⟩ : Fin 128) = q := Fin.ext hi1
  rw [hq]
  have e0 : (fun k => x0 (ix2 p k)) = fun k => X (ix2 (⟨(i 0).val, idx2_lt0 i⟩ : Fin 50000) k) :=
    funext fun k => h0 p k ⟨(i 0).val, idx2_lt0 i⟩ hi0
  have e1 : (fun k => x1 (ix2 k q)) = fun k => Wt (ix2 k q) := funext fun k => h1 k q
  rw [e0, e1, h2 q]

/-! ## Region 0 -/

/-- The printed index maps, decided over the grid: the input's and the output's row block moves with the point, the
    weight matrix and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of the layer of the arrays as the region finds them. -/
theorem flushed0 (c : Dev nD) (t : Fin cfg0.N) :
    (dat0 V c).flushed 3 t = ((cfg0.win 3).blk t).view.read (Elt Ideal)
      (layerOut (V c main_v18 : S50000x128.Idx → EReal) (V c main_v16 : S128x128.Idx → EReal) (V c main_v17 : S1x128.Idx → EReal)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts0 t
  funext j
  show k0_pay1 (F := Ideal) (iblk0 V c 0 t) (iblk0 V c 1 t) (iblk0 V c 2 t) j
    = layerOut (V c main_v18) (V c main_v16) (V c main_v17) (((cfg0.win 3).blk t).view.emb j)
  refine block_entry (V c main_v18) (V c main_v16) (V c main_v17) (iblk0 V c 0 t) (iblk0 V c 1 t) (iblk0 V c 2 t)
    (t.val * 10000) ?_ ?_ ?_ j _ ?_ ?_
  · intro p k P hP
    show V c main_v18 (((cfg0.win 0).blk t).view.emb (ix2 p k)) = V c main_v18 (ix2 P k)
    refine congrArg (V c main_v18) (funext fun a => Fin.ext ?_)
    match a with
    | ⟨0, _⟩ => show win0_0.index t (0 : Fin 2) * 10000 + 1 * p.val = P.val; rw [e00, hP]; omega
    | ⟨1, _⟩ => show win0_0.index t (1 : Fin 2) * 128 + 1 * k.val = k.val; rw [e01]; omega
  · intro k q
    show V c main_v16 (((cfg0.win 1).blk t).view.emb (ix2 k q)) = V c main_v16 (ix2 k q)
    refine congrArg (V c main_v16) (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · intro q
    show V c main_v17 (((cfg0.win 2).blk t).view.emb (ix2 (0 : Fin 1) q)) = V c main_v17 (ix2 (0 : Fin 1) q)
    refine congrArg (V c main_v17) (funext fun a => Fin.ext ?_)
    match a with
    | ⟨0, _⟩ => show win0_2.index t (0 : Fin 2) * 1 + 1 * 0 = 0; rw [e20]
    | ⟨1, _⟩ => show win0_2.index t (1 : Fin 2) * 128 + 1 * q.val = q.val; rw [e21]; omega
  · show win0_3.index t (0 : Fin 2) * 10000 + 1 * (j 0).val = t.val * 10000 + (j 0).val; rw [e30]; omega
  · show win0_3.index t (1 : Fin 2) * 128 + 1 * (j 1).val = (j 1).val; rw [e31]; omega

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v19).slice (win0_3.rect t)).set ↔ _
  rw [View.set_slice_whole, Rect.mem_set_unit]
  exact Iff.rfl

/-- Every entry of the output array is written back by some point: row `r` by point `r / 10000`. -/
theorem cover0 (i : S50000x128.Idx) :
    ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, e30, e31⟩ := idx_facts0 t
  refine ⟨t, flush0_3 t, ?_⟩
  rw [mem_blk0]
  intro a
  match a with
  | ⟨0, _⟩ =>
    show win0_3.index t (0 : Fin 2) * 10000 ≤ (i 0).val ∧ (i 0).val < win0_3.index t (0 : Fin 2) * 10000 + 10000
    rw [e30, ht]; omega
  | ⟨1, _⟩ =>
    show win0_3.index t (1 : Fin 2) * 128 ≤ (i 1).val ∧ (i 1).val < win0_3.index t (1 : Fin 2) * 128 + 128
    rw [e31]; omega

/-- THE OUTPUT ARRAY AFTER REGION 0: the layer of the region's three input arrays as it finds them. -/
theorem final0 (c : Dev nD) :
    (dat0 V c).arrAt 3 cfg0.N = layerOut (V c main_v18 : S50000x128.Idx → EReal) (V c main_v16 : S128x128.Idx → EReal) (V c main_v17 : S1x128.Idx → EReal) :=
  (dat0 V c).arrAt_eq_of_cover 3 _ (fun t _ => flushed0 V c t) cover0

/-! ## Region 1 -/

/-- The printed index maps, decided over the grid: the input's and the output's row block moves with the point, the
    weight matrix and the bias row stay. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the layer of the arrays as the region finds them. -/
theorem flushed1 (c : Dev nD) (t : Fin cfg1.N) :
    (dat1 V c).flushed 3 t = ((cfg1.win 3).blk t).view.read (Elt Ideal)
      (layerOut (V c main_v38 : S50000x128.Idx → EReal) (V c main_v36 : S128x128.Idx → EReal) (V c main_v37 : S1x128.Idx → EReal)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  obtain ⟨e00, e01, e10, e11, e20, e21, e30, e31⟩ := idx_facts1 t
  funext j
  show k0_pay1 (F := Ideal) (iblk1 V c 0 t) (iblk1 V c 1 t) (iblk1 V c 2 t) j
    = layerOut (V c main_v38) (V c main_v36) (V c main_v37) (((cfg1.win 3).blk t).view.emb j)
  refine block_entry (V c main_v38) (V c main_v36) (V c main_v37) (iblk1 V c 0 t) (iblk1 V c 1 t) (iblk1 V c 2 t)
    (t.val * 10000) ?_ ?_ ?_ j _ ?_ ?_
  · intro p k P hP
    show V c main_v38 (((cfg1.win 0).blk t).view.emb (ix2 p k)) = V c main_v38 (ix2 P k)
    refine congrArg (V c main_v38) (funext fun a => Fin.ext ?_)
    match a with
    | ⟨0, _⟩ => show win1_0.index t (0 : Fin 2) * 10000 + 1 * p.val = P.val; rw [e00, hP]; omega
    | ⟨1, _⟩ => show win1_0.index t (1 : Fin 2) * 128 + 1 * k.val = k.val; rw [e01]; omega
  · intro k q
    show V c main_v36 (((cfg1.win 1).blk t).view.emb (ix2 k q)) = V c main_v36 (ix2 k q)
    refine congrArg (V c main_v36) (funext fun a => Fin.ext ?_)
    match a with
    | ⟨0, _⟩ => show win1_1.index t (0 : Fin 2) * 128 + 1 * k.val = k.val; rw [e10]; omega
    | ⟨1, _⟩ => show win1_1.index t (1 : Fin 2) * 128 + 1 * q.val = q.val; rw [e11]; omega
  · intro q
    show V c main_v37 (((cfg1.win 2).blk t).view.emb (ix2 (0 : Fin 1) q)) = V c main_v37 (ix2 (0 : Fin 1) q)
    refine congrArg (V c main_v37) (funext fun a => Fin.ext ?_)
    match a with
    | ⟨0, _⟩ => show win1_2.index t (0 : Fin 2) * 1 + 1 * 0 = 0; rw [e20]
    | ⟨1, _⟩ => show win1_2.index t (1 : Fin 2) * 128 + 1 * q.val = q.val; rw [e21]; omega
  · show win1_3.index t (0 : Fin 2) * 10000 + 1 * (j 0).val = t.val * 10000 + (j 0).val; rw [e30]; omega
  · show win1_3.index t (1 : Fin 2) * 128 + 1 * (j 1).val = (j 1).val; rw [e31]; omega

/-- An index of the output array is in point `t`'s block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v39).slice (win1_3.rect t)).set ↔ _
  rw [View.set_slice_whole, Rect.mem_set_unit]
  exact Iff.rfl

/-- Every entry of the output array is written back by some point: row `r` by point `r / 10000`. -/
theorem cover1 (i : S50000x128.Idx) :
    ∃ t : Fin cfg1.N, (cfg1.win 3).flush t = true ∧ i ∈ ((cfg1.win 3).blk t).view.set := by
  have hi0 : (i 0).val < 50000 := idx2_lt0 i
  have hi1 : (i 1).val < 128 := idx2_lt1 i
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    rw [e30, ht]; omega
  | ⟨1, _⟩ =>
    show win1_3.index t (1 : Fin 2) * 128 ≤ (i 1).val ∧ (i 1).val < win1_3.index t (1 : Fin 2) * 128 + 128
    rw [e31]; omega

/-- THE OUTPUT ARRAY AFTER REGION 1: the layer of the region's three input arrays as it finds them. -/
theorem final1 (c : Dev nD) :
    (dat1 V c).arrAt 3 cfg1.N = layerOut (V c main_v38 : S50000x128.Idx → EReal) (V c main_v36 : S128x128.Idx → EReal) (V c main_v37 : S1x128.Idx → EReal) :=
  (dat1 V c).arrAt_eq_of_cover 3 _ (fun t _ => flushed1 V c t) cover1

end Cert.KernelIdeal.Region

end
-- ==== Proof.RefValue.lean ====
/-
  The reference program, read as two graph-convolution layers. Its propagation step (gather the source rows, weight
  them by the edge values, scatter-add them onto the destination rows) is carried as ONE function of the two index
  arrays, the edge values and the feature array, `propagate`, and never opened: the kernel program applies the very
  same step. A layer's last stage is then `gcnLayer` of the propagated features, the weight matrix and the bias:
  entry (r, c) is the inner product of the features' row `r` with the weight matrix's ROW `c` (the program transposes
  the matrix and contracts with its columns), plus the bias entry `c`, cut below at zero. The reference's result is
  the second layer of the propagated first layer: `network`.
-/
import proofs.«107794_j81338090651948_2_alg».proof.Proof.Gen.ReferenceIdeal.Read
import proofs.«107794_j81338090651948_2_alg».proof.Proof.Dense
import Idealize.ShloMosaic.Lib.ValueIdx

noncomputable section

namespace Cert.ReferenceIdeal.Layers

open Cert.ReferenceIdeal Cert.ReferenceIdeal.Gen Cert.ReferenceIdeal.Read Cert.Gcn
open Idealize.ShloMosaic Idealize.ShloMosaic.ValueIdx

/-- One layer from its raw parameters: entry (r, c) is `denseRelu` of the features' row `r`, the weight matrix's row
    `c` and the bias entry `c`. -/
def gcnLayer (y : S50000x128.Idx → EReal) (W : S128x128.Idx → EReal) (b : S128.Idx → EReal) : S50000x128.Idx → EReal :=
  fun i => denseRelu (fun k => y (ix2 (⟨(i 0).val, idx2_lt0 i⟩ : Fin 50000) k))
    (fun k => W (ix2 (⟨(i 1).val, idx2_lt1 i⟩ : Fin 128) k)) (b (ix1 (⟨(i 1).val, idx2_lt1 i⟩ : Fin 128)))

/-- The propagation step, as the reference's first one is printed: a function of the source indices, the destination
    indices, the edge values and the features. -/
abbrev propagate (x0 x1 : (⟨S800000, .i32⟩ : BufTy).Contents (Elt Ideal)) (x2 : (⟨S800000, .f32⟩ : BufTy).Contents (Elt Ideal)) (h : (⟨S50000x128, .f32⟩ : BufTy).Contents (Elt Ideal)) : (⟨S50000x128, .f32⟩ : BufTy).Contents (Elt Ideal) :=
  val_main_v12 (F := Ideal) x0 x1 x2 h

/-- The same step with its stages written out: the source indices normalized (a negative index counts from the end),
    the gathered rows scaled by the edge values, the products added onto the destination rows of a zero array. -/
theorem propagate_def (x0 x1 : (⟨S800000, .i32⟩ : BufTy).Contents (Elt Ideal)) (x2 : (⟨S800000, .f32⟩ : BufTy).Contents (Elt Ideal)) (h : (⟨S50000x128, .f32⟩ : BufTy).Contents (Elt Ideal)) :
    propagate x0 x1 x2 h
      = Host.scatterAdd scatter_S50000x128_S800000x1_S800000x128_1_0_0_1
          (broadcastInDim S50000x128 ![] bcast_S_S50000x128 (constant (F := Ideal) S_ .f32 0x00000000#32))
          (broadcastInDim S800000x1 ![0] bcast_S800000_S800000x1_0 x1)
          (mulf
            (Host.gather gather_S50000x128_S800000x1_S800000x128_1_0_n_n_0_1_1128 h
              (broadcastInDim S800000x1 ![0] bcast_S800000_S800000x1_0
                (select (cmpi .slt x0 (broadcastInDim S800000 ![] bcast_S_S800000 (constantI S_ 32 0#32)))
                  (addi x0 (broadcastInDim S800000 ![] bcast_S_S800000 (constantI S_ 32 50000#32))) x0)))
            (broadcastInDim S800000x128 ![0, 1] bcast_S800000x1_S800000x128_0_1
              (broadcastInDim S800000x1 ![0] bcast_S800000_S800000x1_0 x2))) := rfl

/-- The whole network: the second layer of the propagated first layer of the propagated input. -/
def network (x0 x1 : (⟨S800000, .i32⟩ : BufTy).Contents (Elt Ideal)) (x2 : (⟨S800000, .f32⟩ : BufTy).Contents (Elt Ideal)) (x3 : (⟨S50000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) : S50000x128.Idx → EReal :=
  gcnLayer (propagate x0 x1 x2 (gcnLayer (propagate x0 x1 x2 x3) x4 x5)) x6 x7

/-- The reference's second propagation is its first one applied to the first layer's output. -/
theorem second_propagate (x0 x1 : (⟨S800000, .i32⟩ : BufTy).Contents (Elt Ideal)) (x2 : (⟨S800000, .f32⟩ : BufTy).Contents (Elt Ideal)) (x3 : (⟨S50000x128, .f32⟩ : BufTy).Contents (Elt Ideal)) (x4 : (⟨S128x128, .f32⟩ : BufTy).Contents (Elt Ideal)) (x5 : (⟨S128, .f32⟩ : BufTy).Contents (Elt Ideal)) :
    val_main_v31 (F := Ideal) x0 x1 x2 x3 x4 x5 = propagate x0 x1 x2 (val_main_v18 (F := Ideal) x0 x1 x2 x3 x4 x5) := rfl

/-! ## Which entries a layer's stages read -/

theorem row_idx1 (i : S50000x128.Idx) (k : Fin 128) : lidx_main_v14 i k = ix2 (⟨(i 0).val, idx2_lt0 i⟩ : Fin 50000) k :=
  funext fun a => Fin.ext (by match a with | ⟨0, _⟩ => rfl | ⟨1, _⟩ => rfl)
theorem weight_idx1 (i : S50000x128.Idx) (k : Fin 128) :
    idx_main_v13 (ridx_main_v14 i k) = ix2 (⟨(i 1).val, idx2_lt1 i⟩ : Fin 128) k :=
  funext fun a => Fin.ext (by match a with | ⟨0, _⟩ => rfl | ⟨1, _⟩ => rfl)
theorem bias_idx1 (i : S50000x128.Idx) : idx_main_v15 (idx_main_v16 i) = ix1 (⟨(i 1).val, idx2_lt1 i⟩ : Fin 128) :=
  funext fun a => Fin.ext (by match a with | ⟨0, _⟩ => rfl)
theorem row_idx2 (i : S50000x128.Idx) (k : Fin 128) : lidx_main_v33 i k = ix2 (⟨(i 0).val, idx2_lt0 i⟩ : Fin 50000) k :=
  funext fun a => Fin.ext (by match a with | ⟨0, _⟩ => rfl | ⟨1, _⟩ => rfl)
theorem weight_idx2 (i : S50000x128.Idx) (k : Fin 128) :
    idx_main_v32 (ridx_main_v33 i k) = ix2 (⟨(i 1).val, idx2_lt1 i⟩ : Fin 128) k :=
  funext fun a => Fin.ext (by match a with | ⟨0, _⟩ => rfl | ⟨1, _⟩ => rfl)
theorem bias_idx2 (i : S50000x128.Idx) : idx_main_v34 (idx_main_v35 i) = ix1 (⟨(i 1).val, idx2_lt1 i⟩ : Fin 128) :=
  funext fun a => Fin.ext (by match a with | ⟨0, _⟩ => rfl)

/-! ## The two layers -/

/-- THE FIRST LAYER's last stage is `gcnLayer` of the propagated input. -/
theorem layer1 (x0 x1 : (⟨S800000, .i32⟩ : BufTy).Contents (Elt Ideal)) (x2 : (⟨S800000, .f32⟩ : BufTy).Contents (Elt Ideal)) (x3 : (⟨S50000x128, .f32⟩ : BufTy).Contents (Elt Ideal)) (x4 : (⟨S128x128, .f32⟩ : BufTy).Contents (Elt Ideal)) (x5 : (⟨S128, .f32⟩ : BufTy).Contents (Elt Ideal)) :
    val_main_v18 (F := Ideal) x0 x1 x2 x3 x4 x5 = gcnLayer (propagate x0 x1 x2 x3) x4 x5 := by
  funext i
  rw [val_main_v18_apply, val_main_v17_apply, val_main_v14_apply, val_main_v16_apply, val_main_v15_apply,
    val_main_call0_v0_apply, val_main_call0_cst_apply]
  simp only [val_main_v13_apply, row_idx1, weight_idx1, bias_idx1, Ideal.maximumf_def, Ideal.addf_def, Ideal.ofBits_def,
    Ideal.ofBits_zero_f32]
  rfl

/-- THE SECOND LAYER's last stage is `gcnLayer` of the second propagation. -/
theorem layer2 (x0 x1 : (⟨S800000, .i32⟩ : BufTy).Contents (Elt Ideal)) (x2 : (⟨S800000, .f32⟩ : BufTy).Contents (Elt Ideal)) (x3 : (⟨S50000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v37 (F := Ideal) x0 x1 x2 x3 x4 x5 x6 x7 = gcnLayer (val_main_v31 (F := Ideal) x0 x1 x2 x3 x4 x5) x6 x7 := by
  funext i
  rw [val_main_v37_apply, val_main_v36_apply, val_main_v33_apply, val_main_v35_apply, val_main_v34_apply,
    val_main_call1_v0_apply, val_main_call1_cst_apply]
  simp only [val_main_v32_apply, row_idx2, weight_idx2, bias_idx2, Ideal.maximumf_def, Ideal.addf_def, Ideal.ofBits_def,
    Ideal.ofBits_zero_f32]
  rfl

/-- THE REFERENCE'S RESULT is the network of its arguments. -/
theorem result_eq (x0 x1 : (⟨S800000, .i32⟩ : BufTy).Contents (Elt Ideal)) (x2 : (⟨S800000, .f32⟩ : BufTy).Contents (Elt Ideal)) (x3 : (⟨S50000x128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v37 (F := Ideal) x0 x1 x2 x3 x4 x5 x6 x7 = network x0 x1 x2 x3 x4 x5 x6 x7 := by
  rw [layer2, second_propagate, layer1]
  rfl

end Cert.ReferenceIdeal.Layers

end
-- ==== Proof.LibFormatGather.lean ====
/-
  Changes of float format on the extended reals, for arrays of any shape and any pair of formats.

  At the exact instance every float is an extended real whatever its format, and narrowing (`truncf`) or widening
  (`extf`) an array to another format returns each entry as it is. So as FUNCTIONS of the index the narrowed or
  widened array is the array, and a program that narrows an array, gathers rows of it by an index array and widens
  the gathered rows has gathered the rows of the array itself: a gather only chooses WHICH entry of its operand each
  result entry is, and never looks at the entries. The three statements below say this with the format change kept
  as the program prints it on the left and gone on the right, so that a printed term is rewritten by them
  (`rw [widen_gather_narrow, narrow_id]`) without any of its operands being unfolded.
-/
import Idealize.ShloMosaic.PureOps.Ideal

noncomputable section

namespace FormatGather

open Idealize.ShloMosaic

/-- Narrowing an array of extended reals to a shorter float format leaves it, as a function of the index, as it is. -/
theorem narrow_id {s : Shape} {φ ψ : FTy} (x : FVec Ideal s φ) (h : ψ.bits < φ.bits) :
    (truncf ψ x h : s.Idx → EReal) = x := rfl

/-- Widening an array of extended reals to a longer float format leaves it as it is. -/
theorem widen_id {s : Shape} {φ ψ : FTy} (x : FVec Ideal s φ) (h : φ.bits < ψ.bits) :
    (extf ψ x h : s.Idx → EReal) = x := rfl

/-- Gathering entries of the narrowed array and widening what was gathered is gathering entries of the array: for any
    gather (any operand, index and result shapes, any index width) and any three formats. -/
theorem widen_gather_narrow {s si t : Shape} {w : Nat} {φ ψ χ : FTy} (d : GatherDims s si t) (x : FVec Ideal s φ)
    (idx : IVec si w) (h1 : ψ.bits < φ.bits) (h2 : ψ.bits < χ.bits) :
    (extf χ (Host.gather d (truncf ψ x h1) idx) h2 : t.Idx → EReal) = Host.gather d x idx := rfl

end FormatGather

end
-- ==== Proof.HostStretch.lean ====
/-
  The host operations between the launch and the first region, and between the two regions, as functions of the
  buffers they start from. Each stretch prepares a region's three operands: the features propagated along the edges
  (gather the source rows, scale by the edge values, add onto the destination rows), the layer's weight matrix
  transposed, and its bias as a one-row matrix. The kernel program narrows the features to a shorter float format
  before the gather and widens the gathered rows after it, and narrows the propagated features and the weights on the way
  into the region; on the extended reals a change of format is the identity, so the propagated features are exactly the
  reference's propagation step `propagate` of the same four arrays — which is all this proof ever says about that step.
  The stretches are read at an arbitrary starting valuation `W`, so that nothing of the launch memory or of the first
  region's run is unfolded here.
-/
import proofs.«107794_j81338090651948_2_alg».proof.Proof.Gen.KernelIdeal.Launch
import proofs.«107794_j81338090651948_2_alg».proof.Proof.RefValue
import proofs.«107794_j81338090651948_2_alg».proof.Proof.LibFormatGather
import Idealize.ShloMosaic.Lib.StableHlo.Run
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

/-- The two programs state the same gather: the same axes, the same slice sizes, over the same three shapes. -/
theorem gatherDims_eq : gather_S50000x128_S800000x1_S800000x128_1_0_n_n_0_1_1128
    = Cert.ReferenceIdeal.gather_S50000x128_S800000x1_S800000x128_1_0_n_n_0_1_1128 := rfl

/-- And the same scatter. -/
theorem scatterDims_eq : scatter_S50000x128_S800000x1_S800000x128_1_0_0_1
    = Cert.ReferenceIdeal.scatter_S50000x128_S800000x1_S800000x128_1_0_0_1 := rfl

/-! ## The stretch before region 0 -/

set_option maxHeartbeats 2000000 in
/-- The region's input array: the features (the embedding argument) propagated along the edges. -/
theorem stretch0_input (W : Valuation τ sig (Elt Ideal)) :
    StableHlo.after (hostOps0 (F := Ideal)) W (Proc.devRef .tc main_v18)
      = Cert.ReferenceIdeal.Layers.propagate (W (Proc.devRef .tc main_arg0)) (W (Proc.devRef .tc main_arg1))
          (W (Proc.devRef .tc main_arg2)) (W (Proc.devRef .tc main_arg3)) := by
  after_results_simp
  rw [Cert.ReferenceIdeal.Layers.propagate_def, FormatGather.widen_gather_narrow, FormatGather.narrow_id, gatherDims_eq, scatterDims_eq]

set_option maxHeartbeats 2000000 in
/-- The region's weight operand: the layer's weight matrix transposed (and narrowed, which changes nothing here). -/
theorem stretch0_weights (W : Valuation τ sig (Elt Ideal)) :
    StableHlo.after (hostOps0 (F := Ideal)) W (Proc.devRef .tc main_v16)
      = (truncf .bf16 (transpose S128x128 [1, 0] (W (Proc.devRef .tc main_arg4)) transposes_S128x128_S128x128_1_0) bitsLt_bf16_f32 : FVec Ideal S128x128 .bf16) := by
  after_results_simp

set_option maxHeartbeats 2000000 in
/-- The region's bias operand: the layer's bias vector as a one-row matrix. -/
theorem stretch0_bias (W : Valuation τ sig (Elt Ideal)) :
    StableHlo.after (hostOps0 (F := Ideal)) W (Proc.devRef .tc main_v17)
      = shapeCast S1x128 (W (Proc.devRef .tc main_arg5)) shapeCasts_S128_S1x128 := by
  after_results_simp
  rfl

/-! ## The stretch before region 1 -/

set_option maxHeartbeats 2000000 in
/-- The region's input array: the features (the first region's output) propagated along the edges. -/
theorem stretch1_input (W : Valuation τ sig (Elt Ideal)) :
    StableHlo.after (hostOps1 (F := Ideal)) W (Proc.devRef .tc main_v38)
      = Cert.ReferenceIdeal.Layers.propagate (W (Proc.devRef .tc main_arg0)) (W (Proc.devRef .tc main_arg1))
          (W (Proc.devRef .tc main_arg2)) (W (Proc.devRef .tc main_v19)) := by
  after_results_simp
  rw [Cert.ReferenceIdeal.Layers.propagate_def, FormatGather.widen_gather_narrow, FormatGather.narrow_id, gatherDims_eq, scatterDims_eq]

set_option maxHeartbeats 2000000 in
/-- The region's weight operand: the layer's weight matrix transposed (and narrowed, which changes nothing here). -/
theorem stretch1_weights (W : Valuation τ sig (Elt Ideal)) :
    StableHlo.after (hostOps1 (F := Ideal)) W (Proc.devRef .tc main_v36)
      = (truncf .bf16 (transpose S128x128 [1, 0] (W (Proc.devRef .tc main_arg6)) transposes_S128x128_S128x128_1_0) bitsLt_bf16_f32 : FVec Ideal S128x128 .bf16) := by
  after_results_simp

set_option maxHeartbeats 2000000 in
/-- The region's bias operand: the layer's bias vector as a one-row matrix. -/
theorem stretch1_bias (W : Valuation τ sig (Elt Ideal)) :
    StableHlo.after (hostOps1 (F := Ideal)) W (Proc.devRef .tc main_v37)
      = shapeCast S1x128 (W (Proc.devRef .tc main_arg7)) shapeCasts_S128_S1x128 := by
  after_results_simp
  rfl

end Cert.KernelIdeal.Stretch

end
-- ==== Proof.KernelValue.lean ====
/-
  The kernel program's result as a function of its arguments. Reading the run's last boundary backwards: the result
  array is the second region's output, which is one dense layer of the second stretch's three operands; those are the
  edge propagation of the FIRST region's output, the second weight matrix transposed and the second bias as a row;
  the first region's output is one dense layer of the first stretch's operands, which are the propagation of the
  embedding argument, the first weight matrix transposed and the first bias as a row. A region's layer of (features,
  transposed weights, bias row) is the layer of the raw parameters — entry (r, c) contracts the features' row `r` with
  the weight matrix's row `c` and adds the bias entry `c` — so the result is `network` of the eight arguments: the same
  function the reference's result is. No argument is written by a stretch or a region, so the arguments the second
  stretch reads are the launch's.
-/
import proofs.«107794_j81338090651948_2_alg».proof.Proof.KernelRun
import proofs.«107794_j81338090651948_2_alg».proof.Proof.RegionValue
import proofs.«107794_j81338090651948_2_alg».proof.Proof.HostStretch
import Idealize.ShloMosaic.Lib.ValueLayout

set_option maxRecDepth 16384

noncomputable section

namespace Cert.KernelIdeal.Whole

open Cert.KernelIdeal Cert.KernelIdeal.Gen Cert.KernelIdeal.Region Cert.KernelIdeal.Stretch
open Idealize.ShloMosaic Idealize.ShloMosaic.TcCoe Idealize.SL.Sem Idealize.ShloMosaic.ValueIdx
open Cert.ReferenceIdeal.Layers (gcnLayer propagate network)

/-- A region's layer of the features, the TRANSPOSED (and narrowed) weight matrix and the bias as a one-row matrix is
    the layer of the raw weight matrix and bias vector: the transposed matrix's column `c` is the matrix's row `c`, and
    the one-row matrix's entry (0, c) is the vector's entry `c`. -/
theorem layer_of_params (X : S50000x128.Idx → EReal) (Wm : FVec Ideal S128x128 .f32) (b : FVec Ideal S128 .f32) :
    layerOut X (truncf .bf16 (transpose S128x128 [1, 0] Wm transposes_S128x128_S128x128_1_0) bitsLt_bf16_f32 : FVec Ideal S128x128 .bf16)
      (shapeCast S1x128 b shapeCasts_S128_S1x128)
    = gcnLayer X Wm b := by
  funext i
  unfold layerOut gcnLayer
  have e1 : (fun k : Fin 128 => (truncf .bf16 (transpose S128x128 [1, 0] Wm transposes_S128x128_S128x128_1_0) bitsLt_bf16_f32 : FVec Ideal S128x128 .bf16)
        (ix2 k (⟨(i 1).val, idx2_lt1 i⟩ : Fin 128)))
      = fun k => Wm (ix2 (⟨(i 1).val, idx2_lt1 i⟩ : Fin 128) k) :=
    funext fun k => transpose_ix2_apply Wm transposes_S128x128_S128x128_1_0 k ⟨(i 1).val, idx2_lt1 i⟩
  rw [e1, shapeCast_a_1a_apply]

variable (m : (ℓ : Loc nD τ sig) → Buf (Elt Ideal) ℓ) (ρ : Dev nD → PrngReg)

/-! ## The arguments the second stretch reads are the launch's -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! ## The two regions' outputs -/

/-- AFTER THE FIRST REGION its output array holds the first layer of the propagated embedding. -/
theorem first_region (c : Dev nD) :
    W2 m ρ c (Proc.devRef .tc main_v19)
      = gcnLayer (propagate (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  have hW : W2 m ρ c (Proc.devRef .tc main_v19) = (dat0 (V1 m ρ) c).arrAt 3 cfg0.N := W2_arr m ρ c 3
  have hx : (V1 m ρ c main_v18 : S50000x128.Idx → EReal)
      = propagate (m ((c : Thread nD τ).loc main_arg0)) (m ((c : Thread nD τ).loc main_arg1)) (m ((c : Thread nD τ).loc main_arg2)) (m ((c : Thread nD τ).loc main_arg3)) := stretch0_input (W0 m ρ c)
  have hw : (V1 m ρ c main_v16 : S128x128.Idx → EReal)
      = (truncf .bf16 (transpose S128x128 [1, 0] (m ((c : Thread nD τ).loc main_arg4)) transposes_S128x128_S128x128_1_0) bitsLt_bf16_f32 : FVec Ideal S128x128 .bf16) :=
    stretch0_weights (W0 m ρ c)
  have hb : (V1 m ρ c main_v17 : S1x128.Idx → EReal) = shapeCast S1x128 (m ((c : Thread nD τ).loc main_arg5)) shapeCasts_S128_S1x128 :=
    stretch0_bias (W0 m ρ c)
  rw [hW, final0 (V1 m ρ) c, hx, hw, hb, layer_of_params]

/-- AFTER THE SECOND REGION the result array holds the network of the eight arguments. -/
theorem result_value (c : Dev nD) :
    W4 m ρ c (Proc.devRef .tc main_v39)
      = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hW : W4 m ρ c (Proc.devRef .tc main_v39) = (dat1 (V3 m ρ) c).arrAt 3 cfg1.N := W4_arr m ρ c 3
  have hx : (V3 m ρ c main_v38 : S50000x128.Idx → EReal)
      = propagate (W2 m ρ c (Proc.devRef .tc main_arg0)) (W2 m ρ c (Proc.devRef .tc main_arg1))
          (W2 m ρ c (Proc.devRef .tc main_arg2)) (W2 m ρ c (Proc.devRef .tc main_v19)) := stretch1_input (W2 m ρ c)
  have hw : (V3 m ρ c main_v36 : S128x128.Idx → EReal)
      = (truncf .bf16 (transpose S128x128 [1, 0] (W2 m ρ c (Proc.devRef .tc main_arg6)) transposes_S128x128_S128x128_1_0) bitsLt_bf16_f32 : FVec Ideal S128x128 .bf16) :=
    stretch1_weights (W2 m ρ c)
  have hb : (V3 m ρ c main_v37 : S1x128.Idx → EReal)
      = shapeCast S1x128 (W2 m ρ c (Proc.devRef .tc main_arg7)) shapeCasts_S128_S1x128 := stretch1_bias (W2 m ρ c)
  rw [hW, final1 (V3 m ρ) c, hx, hw, hb, layer_of_params, W2_main_arg0, W2_main_arg1, W2_main_arg2, W2_main_arg6,
    W2_main_arg7, first_region]
  rfl

/-! ## The run -/

/-- Every weakly fair execution of the kernel program terminates without a fault with the result array at the network
    of the arguments, and the arguments as launched. -/
theorem run : θ_run defs (onTc (τ := τ) (main (F := Ideal))) ⟨m, fun _ => 0, ρ⟩ (fun r => ∀ c : Dev nD,
      r.2.mem ((c.tc : Thread nD τ).loc main_v39)
        = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.lean ====
/-
  Two graph-convolution layers, computed two ways, are one function on the extended reals.

  Both programs take a graph as an edge list (source indices, destination indices, edge values), node features
  [50000, 128] and the weights and biases of two layers [128, 128], [128]. A layer first PROPAGATES the features along the
  edges — row `dst` of the result is the sum, over the edges into `dst`, of the edge value times row `src` of the features
  (a gather, a product, a scatter-add) — and then applies a dense layer with a rectifier: entry (r, c) is
  `max (Σ_k p[r, k] · W[c, k] + b[c]) 0`. The reference does all of it with array operations. The kernel program does the
  propagation with the same array operations, and the dense layer in a tiled region: five row blocks of 10000 rows, each
  multiplied with the transposed weight matrix, the bias row added and the rectifier applied; it also passes the
  features, the weights and the propagated features through a shorter float format on the way.

  On the extended reals a change of float format is the identity, the tiled product's entry and the array product's
  entry are the same sum of 128 products, and the row blocks fill the output array: so each layer of the kernel program
  is the reference's layer of the same operands, entry by entry, and the propagation step is literally the same
  function on both sides (it is carried through the proof as one function, never opened). Both results are `network` of
  the eight arguments. No law used here needs finiteness (no sum is reordered against a product, nothing is
  cancelled), so the precondition is never opened.

  The three frame claims are the programs' generated runs; the idealization rewrote no operation, so the fourth claim
  is trivial; the fifth is the paragraph above: `Proof/KernelValue.lean` for the kernel program's run and result,
  `Proof/RefValue.lean` for the reference's.
-/
import proofs.«107794_j81338090651948_2_alg».proof.Defs
import proofs.«107794_j81338090651948_2_alg».proof.Proof.Gen.Kernel
import proofs.«107794_j81338090651948_2_alg».proof.Proof.Gen.Kernel.Skeleton
import proofs.«107794_j81338090651948_2_alg».proof.Proof.Gen.Kernel.Launch
import proofs.«107794_j81338090651948_2_alg».proof.Proof.Gen.Kernel.Points
import proofs.«107794_j81338090651948_2_alg».proof.Proof.Gen.Kernel.Frame
import proofs.«107794_j81338090651948_2_alg».proof.Proof.Gen.KernelIdeal
import proofs.«107794_j81338090651948_2_alg».proof.Proof.Gen.KernelIdeal.Skeleton
import proofs.«107794_j81338090651948_2_alg».proof.Proof.Gen.KernelIdeal.Launch
import proofs.«107794_j81338090651948_2_alg».proof.Proof.Gen.KernelIdeal.Points
import proofs.«107794_j81338090651948_2_alg».proof.Proof.Gen.KernelIdeal.Frame
import proofs.«107794_j81338090651948_2_alg».proof.Proof.Gen.ReferenceIdeal
import proofs.«107794_j81338090651948_2_alg».proof.Proof.Gen.ReferenceIdeal.Run
import proofs.«107794_j81338090651948_2_alg».proof.Proof.Gen.ReferenceIdeal.Read
import proofs.«107794_j81338090651948_2_alg».proof.Proof.Gen.Pre_finite_inputs
import proofs.«107794_j81338090651948_2_alg».proof.Proof.KernelValue
import proofs.«107794_j81338090651948_2_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs, and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation: nothing to state. -/
theorem preserves : Cert.preserves_Kernel_KernelIdeal := trivial

/-- From memories that agree on the eight arguments, the kernel program's result array and the reference's both end at
    `network` of the arguments: the kernel program's by its run read back through its two regions and two stretches of
    host operations, the reference's by its run read one operation at a time. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨e0, e1, e2, e3, e4, e5, e6, e7⟩ := hagree c
  rw [(h c).1, Cert.ReferenceIdeal.Read.val_main_v37_eq, Cert.ReferenceIdeal.Layers.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
